-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16x1 .f32) (main_arg6 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg5
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x16 .f32) (main_arg4 : FVec F S16 .f32) (main_arg5 : FVec F S16x1 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x16 .f32 := Host.absf main_arg3
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x256 : Shape := ⟨2, ![5000, 256]⟩
abbrev S5000x16 : Shape := ⟨2, ![5000, 16]⟩
abbrev S3300000x16 : Shape := ⟨2, ![3300000, 16]⟩
abbrev S1x16 : Shape := ⟨2, ![1, 16]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 98
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S100000x16, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x16, .f32⟩
  | .hbm, ⟨66, _⟩ => ⟨S3300000x1, .f32⟩
  | .hbm, ⟨67, _⟩ => ⟨S3300000x16, .f32⟩
  | .hbm, ⟨68, _⟩ => ⟨S3300000x16, .f32⟩
  | .hbm, ⟨69, _⟩ => ⟨S_, .f32⟩
  | .hbm, ⟨70, _⟩ => ⟨S100000x16, .f32⟩
  | .hbm, ⟨71, _⟩ => ⟨S3300000x1, .i32⟩
  | .hbm, ⟨72, _⟩ => ⟨S100000x16, .f32⟩
  | .hbm, ⟨73, _⟩ => ⟨S1x16, .f32⟩
  | .hbm, ⟨74, _⟩ => ⟨S100000x16, .f32⟩
  | .hbm, ⟨75, _⟩ => ⟨S100000x16, .f32⟩
  | .hbm, ⟨76, _⟩ => ⟨S_, .f32⟩
  | .hbm, ⟨77, _⟩ => ⟨S100000x16, .f32⟩
  | .hbm, ⟨78, _⟩ => ⟨S100000x16, .f32⟩
  | .hbm, ⟨79, _⟩ => ⟨S100000x1, .f32⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S3300000x1, .f32⟩
  | .hbm, ⟨89, _⟩ => ⟨S3300000x1, .f32⟩
  | .hbm, ⟨90, _⟩ => ⟨S3300000x1, .f32⟩
  | .hbm, ⟨91, _⟩ => ⟨S_, .f32⟩
  | .hbm, ⟨92, _⟩ => ⟨S100000x1, .f32⟩
  | .hbm, ⟨93, _⟩ => ⟨S3300000x1, .i32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x1, .f32⟩
  | .local _ .vmem, ⟨8, _⟩ => ⟨S5000x1, .f32⟩
  | .local _ .vmem, ⟨9, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x1_S16x1_0_0 : ∀ a, (![0, 0] : Fin 2 → Nat) a + S16x1.size a ≤ S16x1.size a
  h_S16x1 : 0 < S16x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x16_S5000x16_1_0_0_1_n_n_wf : DotDims.WF S5000x256 S256x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x1_S5000x1_1_0_0_1_n_n_wf : DotDims.WF S5000x16 S16x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S100000x16, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x16, .f32⟩
  | .hbm, ⟨66, _⟩ => ⟨S3300000x1, .f32⟩
  | .hbm, ⟨67, _⟩ => ⟨S3300000x16, .f32⟩
  | .hbm, ⟨68, _⟩ => ⟨S3300000x16, .f32⟩
  | .hbm, ⟨69, _⟩ => ⟨S_, .f32⟩
  | .hbm, ⟨70, _⟩ => ⟨S100000x16, .f32⟩
  | .hbm, ⟨71, _⟩ => ⟨S3300000x1, .i32⟩
  | .hbm, ⟨72, _⟩ => ⟨S100000x16, .f32⟩
  | .hbm, ⟨73, _⟩ => ⟨S1x16, .f32⟩
  | .hbm, ⟨74, _⟩ => ⟨S100000x16, .f32⟩
  | .hbm, ⟨75, _⟩ => ⟨S100000x16, .f32⟩
  | .hbm, ⟨76, _⟩ => ⟨S_, .f32⟩
  | .hbm, ⟨77, _⟩ => ⟨S100000x16, .f32⟩
  | .hbm, ⟨78, _⟩ => ⟨S100000x16, .f32⟩
  | .hbm, ⟨79, _⟩ => ⟨S100000x1, .f32⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S3300000x1, .f32⟩
  | .hbm, ⟨89, _⟩ => ⟨S3300000x1, .f32⟩
  | .hbm, ⟨90, _⟩ => ⟨S3300000x1, .f32⟩
  | .hbm, ⟨91, _⟩ => ⟨S_, .f32⟩
  | .hbm, ⟨92, _⟩ => ⟨S100000x1, .f32⟩
  | .hbm, ⟨93, _⟩ => ⟨S3300000x1, .i32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Spec.lean ====
/-
  The graph convolution the two programs share, as plain functions of the arrays.

  Both programs build the same normalised adjacency from the edge list: the edges are followed by one self loop
  per node (`srcRaw`, `dstRaw`), every edge weight by a one (`wAll`); a node's degree is the sum of the weights of
  the edges that end at it (`degOf`, `deg`), its scale is `deg^(-1/2)` where the degree is positive and zero
  elsewhere (`disOf`, `dis`: the guarded choice `whereOf` taken twice, once to keep the inverse square root away from
  the non-positive degrees and once to put the zeros back), and an edge's coefficient is `dis src · w · dis dst`
  (`normOf`, `norm`; a negative index is first moved up by the node count, `wrapIx`). A layer gathers the transformed
  features at the edges' sources, scales each row by the edge's coefficient, sums the rows that end at each node
  and adds the bias (`pre1`, `layer2`); the first layer is followed by `max(·, 0)` (`relu`, `layer1`), the second is not. The dense transform in front of each layer is the matrix
  product (`dense1`, `dense2`), and `full` is the two layers composed. The reference's result term is `full` of the
  arguments, by unfolding (`ref_eq`).
-/
import proofs.«138966_j17497696764522_1_alg».proof.Proof.Gen.ReferenceIdeal.Run

noncomputable section

namespace Cert.Gcn

open Cert.ReferenceIdeal Cert.ReferenceIdeal.Gen Idealize.ShloMosaic Idealize.ShloMosaic.TcCoe Idealize.SL.Sem

variable {F : FTy → Type} [FloatOps F]

/-- An `i32` array of a shape. -/
abbrev IArr (F : FTy → Type) (S : Shape) : Type := (⟨S, .i32⟩ : BufTy).Contents (Elt F)
/-- An `f32` array of a shape. -/
abbrev RArr (F : FTy → Type) (S : Shape) : Type := (⟨S, .f32⟩ : BufTy).Contents (Elt F)
/-- An array of truth values of a shape. -/
abbrev BArr (F : FTy → Type) (S : Shape) : Type := (⟨S, .i1⟩ : BufTy).Contents (Elt F)

/-- The edges' sources: row 0 of the edge list, then the nodes `0 … N-1` (the self loops). -/
def srcRaw (a1 : IArr F S2x3200000) : IArr F S3300000 :=
  concatenate S3300000 0 [⟨S3200000, (shapeCast _ (extractStridedSlice S1x3200000 ![0, 0] a1 slices_S2x3200000_S1x3200000_0_0) shapeCasts_S1x3200000_S3200000)⟩, ⟨S100000, (iotaInDim S100000 32 0)⟩] concatenates_S3200000_S100000_S3300000_d0

/-- The edges' destinations: row 1 of the edge list, then the self loops. -/
def dstRaw (a1 : IArr F S2x3200000) : IArr F S3300000 :=
  concatenate S3300000 0 [⟨S3200000, (shapeCast _ (extractStridedSlice S1x3200000 ![1, 0] a1 slices_S2x3200000_S1x3200000_1_0) shapeCasts_S1x3200000_S3200000)⟩, ⟨S100000, (iotaInDim S100000 32 0)⟩] concatenates_S3200000_S100000_S3300000_d0

/-- The edges' weights: the given ones, then a one per self loop. -/
def wAll (a2 : RArr F S3200000) : RArr F S3300000 :=
  concatenate S3300000 0 [⟨S3200000, a2⟩, ⟨S100000, (broadcastInDim S100000 ![] bcast_S_S100000 (constant S_ .f32 0x3F800000#32))⟩] concatenates_S3200000_S100000_S3300000_d0

/-- The degrees from a destination list and a weight list: the weights of the edges ending at each node, summed. -/
def degOf (dst : IArr F S3300000) (w : RArr F S3300000) : RArr F S100000 :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) w

/-- A node's degree: the weights of the edges ending at it, summed. -/
def deg (a1 : IArr F S2x3200000) (a2 : RArr F S3200000) : RArr F S100000 :=
  degOf (dstRaw a1) (wAll a2)

/-- Where a degree is positive. -/
def posOf (dg : RArr F S100000) : BArr F S100000 :=
  cmpf .ogt dg (broadcastInDim S100000 ![] bcast_S_S100000 (constant S_ .f32 0x00000000#32))

/-- A guarded choice per node: `x` where `p` holds, the scalar `k` elsewhere. -/
def whereOf (p : BArr F S100000) (x : RArr F S100000) (k : RArr F S_) : RArr F S100000 :=
  select p x (broadcastInDim S100000 ![] bcast_S_S100000 (id k))

/-- The scalar one. -/
def oneS : RArr F S_ := constant S_ .f32 0x3F800000#32
/-- The scalar zero. -/
def zeroS : RArr F S_ := constant S_ .f32 0x00000000#32
/-- The inverse square root, node by node. -/
def rsqrtOf (x : RArr F S100000) : RArr F S100000 := Host.rsqrt x

/-- The scales from the degrees: `deg^(-1/2)` where the degree is positive (the inverse square root is taken of
    the degree there and of one elsewhere), zero elsewhere. -/
def disOf (dg : RArr F S100000) : RArr F S100000 :=
  whereOf (posOf dg) (rsqrtOf (whereOf (posOf dg) dg oneS)) zeroS

/-- A node's scale: `deg^(-1/2)` where the degree is positive, zero elsewhere. -/
def dis (a1 : IArr F S2x3200000) (a2 : RArr F S3200000) : RArr F S100000 :=
  disOf (deg a1 a2)

/-- A negative index counts from the end: it is moved up by the node count. -/
def wrapIx (v : IArr F S3300000) : IArr F S3300000 :=
  select (cmpi .slt v (broadcastInDim S3300000 ![] bcast_S_S3300000 (constantI S_ 32 0#32))) (addi v (broadcastInDim S3300000 ![] bcast_S_S3300000 (constantI S_ 32 100000#32))) v

/-- The edge coefficients from the scales, the two index lists and the weights: the source's scale times the
    weight times the destination's scale. -/
def normOf (d : RArr F S100000) (src dst : IArr F S3300000) (w : RArr F S3300000) : RArr F S3300000 :=
  mulf (mulf (Host.gather gather_S100000_S3300000x1_S3300000_n_0_n_n_0_1_1 d (broadcastInDim S3300000x1 ![0] bcast_S3300000_S3300000x1_0 (wrapIx src))) w) (Host.gather gather_S100000_S3300000x1_S3300000_n_0_n_n_0_1_1 d (broadcastInDim S3300000x1 ![0] bcast_S3300000_S3300000x1_0 (wrapIx dst)))

/-- An edge's coefficient: the source's scale times the weight times the destination's scale. -/
def norm (a1 : IArr F S2x3200000) (a2 : RArr F S3200000) : RArr F S3300000 :=
  normOf (dis a1 a2) (srcRaw a1) (dstRaw a1) (wAll a2)

/-- The first layer's aggregation after its dense transform `h`: gather at the sources, scale by the coefficients,
    sum at the destinations, add the bias. -/
def pre1 (h : RArr F S100000x16) (src dst : IArr F S3300000) (nrm : RArr F S3300000) (a4 : RArr F S16) : RArr F S100000x16 :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (Host.gather gather_S100000x16_S3300000x1_S3300000x16_1_0_n_n_0_1_116 h (broadcastInDim S3300000x1 ![0] bcast_S3300000_S3300000x1_0 (wrapIx src))) (broadcastInDim S3300000x16 ![0, 1] bcast_S3300000x1_S3300000x16_0_1 (broadcastInDim S3300000x1 ![0] bcast_S3300000_S3300000x1_0 nrm)))) (broadcastInDim S100000x16 ![0, 1] bcast_S1x16_S100000x16_0_1 (broadcastInDim S1x16 ![1] bcast_S16_S1x16_1 a4))

/-- Clamping below at zero. -/
def relu (x : RArr F S100000x16) : RArr F S100000x16 :=
  maximumf x (broadcastInDim S100000x16 ![] bcast_S_S100000x16 (constant S_ .f32 0x00000000#32))

/-- The first layer after its dense transform `h`: the aggregation, clamped below at zero. -/
def layer1 (h : RArr F S100000x16) (src dst : IArr F S3300000) (nrm : RArr F S3300000) (a4 : RArr F S16) : RArr F S100000x16 :=
  relu (pre1 h src dst nrm a4)

/-- The second layer after its dense transform `h`: the same aggregation and the bias, no clamp. -/
def layer2 (h : RArr F S100000x1) (src dst : IArr F S3300000) (nrm : RArr F S3300000) (a6 : RArr F S1) : RArr F S100000x1 :=
  addf (Host.scatterAdd scatter_S100000x1_S3300000x1_S3300000x1_1_0_0_1 (broadcastInDim S100000x1 ![] bcast_S_S100000x1 (constant S_ .f32 0x00000000#32)) (broadcastInDim S3300000x1 ![0] bcast_S3300000_S3300000x1_0 dst) (mulf (Host.gather gather_S100000x1_S3300000x1_S3300000x1_1_0_n_n_0_1_11 h (broadcastInDim S3300000x1 ![0] bcast_S3300000_S3300000x1_0 (wrapIx src))) (broadcastInDim S3300000x1 ![0] bcast_S3300000_S3300000x1_0 nrm))) (broadcastInDim S100000x1 ![0, 1] bcast_S1x1_S100000x1_0_1 (broadcastInDim S1x1 ![1] bcast_S1_S1x1_1 a6))

/-- The first dense transform: features times the first weight matrix. -/
def dense1 (x : RArr F S100000x256) (w : RArr F S256x16) : RArr F S100000x16 :=
  Host.dotGeneral dot_S100000x256_S256x16_S100000x16_1_0_0_1_n_n none x w

/-- The second dense transform: hidden features times the second weight matrix. -/
def dense2 (h : RArr F S100000x16) (w : RArr F S16x1) : RArr F S100000x1 :=
  Host.dotGeneral dot_S100000x16_S16x1_S100000x1_1_0_0_1_n_n none h w

/-- The two layers composed: the network's output as one function of the seven arguments. -/
def full (a0 : RArr F S100000x256) (a1 : IArr F S2x3200000) (a2 : RArr F S3200000) (a3 : RArr F S256x16) (a4 : RArr F S16)
    (a5 : RArr F S16x1) (a6 : RArr F S1) : RArr F S100000x1 :=
  layer2 (dense2 (layer1 (dense1 a0 a3) (srcRaw a1) (dstRaw a1) (norm a1 a2) a4) a5) (srcRaw a1) (dstRaw a1) (norm a1 a2) a6

set_option maxRecDepth 8192 in
/-- The reference's result term is the composed network of its arguments: the same operations, inlined. -/
theorem ref_eq (m : (ℓ : Loc nD τ sig) → Buf (Elt F) ℓ) (c : Dev nD) :
    Cert.ReferenceIdeal.Value.res_main_v68 m c
      = full (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.Value.res_main_v68 full layer2 layer1 relu pre1 dense2 dense1 norm normOf dis disOf rsqrtOf zeroS oneS whereOf posOf deg degOf wrapIx wAll srcRaw dstRaw
  rfl

end Cert.Gcn

end
-- ==== Proof.KernelRun.lean ====
/-
  The idealized kernel's run with its result named.

  The program is ten segments: five stretches of host operations, the first matrix-product region, two more
  stretches, the second region, a last stretch. The buffer contents at each boundary are a fold from the launch
  memory (`W0 … W10`): a stretch applies its operations, a region replaces its arrays by what its write-backs leave.
  Every weakly fair execution terminates without a fault, the arguments end as launched, and the result buffer ends
  at the last boundary's contents, `W10` at the result's reference.
-/
import proofs.«138966_j17497696764522_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_named : θ_run defs (onTc (τ := τ) (main (F := F))) ⟨m, fun _ => 0, ρ⟩ (fun r => ∀ c : Dev nD,
      r.2.mem ((c.tc : Thread nD τ).loc main_v68) = W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Run

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.Body.lean ====
/-
  The two matrix-product bodies read at an index.

  Each body rounds its two loaded blocks to bf16 (the identity on the ideal values; the second body first recasts
  its block to its own shape, also the identity) and multiplies them into a zero accumulator: at row `r`, column `q` of the block it stores `∑ k, x (r, k) · w (k, q)`.
-/
import proofs.«138966_j17497696764522_1_alg».proof.Proof.Gen.KernelIdeal.Skeleton
import proofs.«138966_j17497696764522_1_alg».proof.Proof.LibPlainDot
import Idealize.ShloMosaic.Lib.Pipeline.Value

noncomputable section

namespace Cert.KernelIdeal.Body

open Cert.KernelIdeal Cert.KernelIdeal.Gen Idealize.ShloMosaic Idealize.ShloMosaic.ValueIdx

/-- The first region's body, a 5000 × 256 block times the 256 × 16 weights, at an index. -/
theorem pay0_apply (x0 : Vec Ideal S5000x256 .f32) (x1 : Vec Ideal S256x16 .f32) (r : Fin 5000) (q : Fin 16) :
    k0_pay1 x0 x1 (ix2 r q) = ∑ k : Fin 256, x0 (ix2 r k) * x1 (ix2 k q) := by
  unfold k0_pay1
  exact PlainDot.matmul_zero_apply 5000 256 16 none (φ₁ := .bf16) (φ₂ := .bf16) x0 x1 r q

/-- The second region's body, a 5000 × 16 block times the 16 × 1 weights, at an index. -/
theorem pay1_apply (x0 : Vec Ideal S5000x16 .f32) (x1 : Vec Ideal S16x1 .f32) (r : Fin 5000) (q : Fin 1) :
    k1_pay1 x0 x1 (ix2 r q) = ∑ k : Fin 16, x0 (ix2 r k) * x1 (ix2 k q) := by
  unfold k1_pay1
  rw [shapeCast_self]
  exact PlainDot.matmul_zero_apply 5000 16 1 none (φ₁ := .bf16) (φ₂ := .bf16) x0 x1 r q

end Cert.KernelIdeal.Body

end
-- ==== Proof.Region0.lean ====
/-
  The first region's result array.

  The region walks the 100000 rows of the features in 20 blocks of 5000: at point `t` the input block is rows
  `5000·t … 5000·t + 4999` of the features, the weight block is the whole 256 × 16 matrix, and the body leaves
  their product in the output block, which is written back to the same rows of the result. A block's entry
  `(r, q)` is `∑ k, x (5000·t + r, k) · w (k, q)`, the whole product's entry at row `5000·t + r`; the 20 blocks
  cover every row (row `i` lies in block `i / 5000`), so the result array ends holding the whole product of the two
  arrays the region found.
-/
import proofs.«138966_j17497696764522_1_alg».proof.Proof.Gen.KernelIdeal.Frame
import proofs.«138966_j17497696764522_1_alg».proof.Proof.Body
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of a 100000 × 256 array and a 256 × 16 array. -/
def prod (X : S100000x256.Idx → Ideal .f32) (W : S256x16.Idx → Ideal .f32) : S100000x16.Idx → Ideal .f32 :=
  Host.dotGeneral (DotDims.plain 100000 256 16) none X W

theorem prod_apply (X : S100000x256.Idx → Ideal .f32) (W : S256x16.Idx → Ideal .f32) (R : Fin 100000) (Q : Fin 16) :
    prod X W (ix2 R Q) = ∑ k : Fin 256, X (ix2 R k) * W (ix2 k Q) :=
  PlainDot.dotGeneral_apply 100000 256 16 none .single X W R Q

/-- The block indices over the grid: the feature and result windows move down one block per point, the weight
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block product is the whole product at the block's rows: if `x0` is rows `5000·n …` of `X` and `x1` is `W`,
    the body's entry at `j` is the whole product's at the array index `i` that `j` names. -/
theorem block_eq (X : S100000x256.Idx → Ideal .f32) (W : S256x16.Idx → Ideal .f32)
    (x0 : Vec Ideal S5000x256 .f32) (x1 : Vec Ideal S256x16 .f32) (n : Nat)
    (h0 : ∀ (y : S5000x256.Idx) (i : S100000x256.Idx), (i 0).val = n * 5000 + (y 0).val → (i 1).val = (y 1).val → x0 y = X i)
    (h1 : ∀ y : S256x16.Idx, x1 y = W y)
    (j : S5000x16.Idx) (i : S100000x16.Idx) (hi0 : (i 0).val = n * 5000 + (j 0).val) (hi1 : (i 1).val = (j 1).val) :
    k0_pay1 x0 x1 j = prod X W i := by
  obtain ⟨r, q, rfl⟩ : ∃ (r : Fin 5000) (q : Fin 16), j = ix2 r q := ⟨j 0, j 1, eq_ix2 j⟩
  obtain ⟨R, Q, rfl⟩ : ∃ (R : Fin 100000) (Q : Fin 16), i = ix2 R Q := ⟨i 0, i 1, eq_ix2 i⟩
  have hR : R.val = n * 5000 + r.val := hi0
  have hQ : Q = q := Fin.ext hi1
  subst hQ
  rw [Body.pay0_apply, prod_apply]
  refine Finset.sum_congr rfl fun k _ => ?_
  rw [h0 (ix2 r k) (ix2 R k) hR rfl, h1]

/-- What point `t` writes back is block `t` of the whole product of the arrays the region found. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x16) hz]
  obtain ⟨e0, e1, e2, e3, e4, e5⟩ := idx_facts t
  funext j
  show k0_pay1 (iblk0 V c 0 t) (iblk0 V c 1 t) j = prod (V c main_arg0) (V c main_arg3) (((cfg0.win 2).blk t).view.emb j)
  refine block_eq (V c main_arg0) (V c main_arg3) (iblk0 V c 0 t) (iblk0 V c 1 t) t.val (fun y i hi0 hi1 => ?_) (fun y => ?_) j
    (((cfg0.win 2).blk t).view.emb j) ?_ ?_
  · show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; omega
    | ⟨1, _⟩ => show win0_0.index t (1 : Fin 2) * 256 + 1 * (y 1).val = (i 1).val; omega
  · show V c main_arg3 (((cfg0.win 1).blk t).view.emb y) = V c main_arg3 y
    refine congrArg (V c main_arg3) (funext fun a => Fin.ext ?_)
    match a with
    | ⟨0, _⟩ => show win0_1.index t (0 : Fin 2) * 256 + 1 * (y 0).val = (y 0).val; omega
    | ⟨1, _⟩ => show win0_1.index t (1 : Fin 2) * 16 + 1 * (y 1).val = (y 1).val; omega
  · show win0_2.index t (0 : Fin 2) * 5000 + 1 * (j 0).val = t.val * 5000 + (j 0).val; omega
  · show win0_2.index t (1 : Fin 2) * 16 + 1 * (j 1).val = (j 1).val; omega

/-- An index of the result is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v35).slice (win0_2.rect t)).set ↔ _
  rw [View.set_slice_whole, Rect.mem_set_unit]
  exact Iff.rfl

/-- Every row of the result lies in some point's block: row `i` in block `i / 5000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  refine ⟨⟨(i 0).val / 5000, by rw [hN]; omega⟩, flush0_2 _, ?_⟩
  obtain ⟨-, -, -, -, e4, e5⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 16 ≤ (i 1).val ∧ (i 1).val < win0_2.index _ (1 : Fin 2) * 16 + 16
    rw [e5]; omega

/-- The result array after the region: the whole product of the features and the weights as the region found them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0

end
-- ==== Proof.Region1.lean ====
/-
  The second region's result array.

  The region walks the 100000 rows of the hidden features in 20 blocks of 5000: at point `t` the input block is
  rows `5000·t … 5000·t + 4999`, the weight block is the whole 16 × 1 column, and the body leaves their product in
  the output block, written back to the same rows of the result. A block's entry `(r, 0)` is
  `∑ k, h (5000·t + r, k) · w (k, 0)`, the whole product's entry at row `5000·t + r`; the 20 blocks cover every
  row, so the result array ends holding the whole product of the two arrays the region found.
-/
import proofs.«138966_j17497696764522_1_alg».proof.Proof.Gen.KernelIdeal.Frame
import proofs.«138966_j17497696764522_1_alg».proof.Proof.Body
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of a 100000 × 16 array and a 16 × 1 array. -/
def prod (X : S100000x16.Idx → Ideal .f32) (W : S16x1.Idx → Ideal .f32) : S100000x1.Idx → Ideal .f32 :=
  Host.dotGeneral (DotDims.plain 100000 16 1) none X W

theorem prod_apply (X : S100000x16.Idx → Ideal .f32) (W : S16x1.Idx → Ideal .f32) (R : Fin 100000) (Q : Fin 1) :
    prod X W (ix2 R Q) = ∑ k : Fin 16, X (ix2 R k) * W (ix2 k Q) :=
  PlainDot.dotGeneral_apply 100000 16 1 none .single X W R Q

/-- The block indices over the grid: the feature and result windows move down one block per point, the weight
    window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block product is the whole product at the block's rows: if `x0` is rows `5000·n …` of `X` and `x1` is `W`,
    the body's entry at `j` is the whole product's at the array index `i` that `j` names. -/
theorem block_eq (X : S100000x16.Idx → Ideal .f32) (W : S16x1.Idx → Ideal .f32)
    (x0 : Vec Ideal S5000x16 .f32) (x1 : Vec Ideal S16x1 .f32) (n : Nat)
    (h0 : ∀ (y : S5000x16.Idx) (i : S100000x16.Idx), (i 0).val = n * 5000 + (y 0).val → (i 1).val = (y 1).val → x0 y = X i)
    (h1 : ∀ y : S16x1.Idx, x1 y = W y)
    (j : S5000x1.Idx) (i : S100000x1.Idx) (hi0 : (i 0).val = n * 5000 + (j 0).val) (hi1 : (i 1).val = (j 1).val) :
    k1_pay1 x0 x1 j = prod X W i := by
  obtain ⟨r, q, rfl⟩ : ∃ (r : Fin 5000) (q : Fin 1), j = ix2 r q := ⟨j 0, j 1, eq_ix2 j⟩
  obtain ⟨R, Q, rfl⟩ : ∃ (R : Fin 100000) (Q : Fin 1), i = ix2 R Q := ⟨i 0, i 1, eq_ix2 i⟩
  have hR : R.val = n * 5000 + r.val := hi0
  have hQ : Q = q := Fin.ext hi1
  subst hQ
  rw [Body.pay1_apply, prod_apply]
  refine Finset.sum_congr rfl fun k _ => ?_
  rw [h0 (ix2 r k) (ix2 R k) hR rfl, h1]

/-- What point `t` writes back is block `t` of the whole product of the arrays the region found. -/
theorem flushed_eq (c : Dev nD) (t : Fin cfg1.N) :
    (dat1 V c).flushed 2 t = ((cfg1.win 2).blk t).view.read (Elt Ideal) (prod (V c main_v52) (V c main_arg5)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x1) hz]
  obtain ⟨e0, e1, e2, e3, e4, e5⟩ := idx_facts t
  funext j
  show k1_pay1 (iblk1 V c 0 t) (iblk1 V c 1 t) j = prod (V c main_v52) (V c main_arg5) (((cfg1.win 2).blk t).view.emb j)
  refine block_eq (V c main_v52) (V c main_arg5) (iblk1 V c 0 t) (iblk1 V c 1 t) t.val (fun y i hi0 hi1 => ?_) (fun y => ?_) j
    (((cfg1.win 2).blk t).view.emb j) ?_ ?_
  · show V c main_v52 (((cfg1.win 0).blk t).view.emb y) = V c main_v52 i
    refine congrArg (V c main_v52) (funext fun a => Fin.ext ?_)
    match a with
    | ⟨0, _⟩ => show win1_0.index t (0 : Fin 2) * 5000 + 1 * (y 0).val = (i 0).val; omega
    | ⟨1, _⟩ => show win1_0.index t (1 : Fin 2) * 16 + 1 * (y 1).val = (i 1).val; omega
  · show V c main_arg5 (((cfg1.win 1).blk t).view.emb y) = V c main_arg5 y
    refine congrArg (V c main_arg5) (funext fun a => Fin.ext ?_)
    match a with
    | ⟨0, _⟩ => show win1_1.index t (0 : Fin 2) * 16 + 1 * (y 0).val = (y 0).val; omega
    | ⟨1, _⟩ => show win1_1.index t (1 : Fin 2) * 1 + 1 * (y 1).val = (y 1).val; omega
  · show win1_2.index t (0 : Fin 2) * 5000 + 1 * (j 0).val = t.val * 5000 + (j 0).val; omega
  · show win1_2.index t (1 : Fin 2) * 1 + 1 * (j 1).val = (j 1).val; omega

/-- An index of the result is in point `t`'s block iff each coordinate is in the block's range on its axis. -/
theorem mem_blk (t : Fin cfg1.N) (i : S100000x1.Idx) :
    i ∈ ((cfg1.win 2).blk t).view.set ↔ ∀ a : Fin 2, win1_2.index t a * S5000x1.size a ≤ (i a).val ∧ (i a).val < win1_2.index t a * S5000x1.size a + S5000x1.size a := by
  show i ∈ ((View.whole main_v53).slice (win1_2.rect t)).set ↔ _
  rw [View.set_slice_whole, Rect.mem_set_unit]
  exact Iff.rfl

/-- Every row of the result lies in some point's block: row `i` in block `i / 5000`. -/
theorem cover (i : S100000x1.Idx) : ∃ t : Fin cfg1.N, (cfg1.win 2).flush t = true ∧ i ∈ ((cfg1.win 2).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_2 _, ?_⟩
  obtain ⟨-, -, -, -, e4, e5⟩ := idx_facts ⟨(i 0).val / 5000, by rw [hN]; omega⟩
  rw [mem_blk]
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 1 ≤ (i 1).val ∧ (i 1).val < win1_2.index _ (1 : Fin 2) * 1 + 1
    rw [e5]; omega

/-- The result array after the region: the whole product of the hidden features and the weights as the region found them. -/
theorem final (c : Dev nD) : (dat1 V c).arrAt 2 cfg1.N = prod (V c main_v52) (V c main_arg5) :=
  (dat1 V c).arrAt_eq_of_cover 2 (prod (V c main_v52) (V c main_arg5)) (fun t _ => flushed_eq V c t) cover

end Cert.KernelIdeal.Region1

end
-- ==== Proof.Kept.lean ====
/-
  What each stretch of host operations leaves unchanged.

  A host operation rewrites only its own result buffer, so after a stretch every buffer that is not the result of
  one of its operations holds what it held before. For each stretch between the launch and the last region the
  result buffers are listed, each operation's written set is checked to lie in the list, and the unchanged-contents
  statement follows for any buffer outside the list.
-/
import proofs.«138966_j17497696764522_1_alg».proof.Proof.Gen.KernelIdeal.Frame
import Idealize.ShloMosaic.Lib.StableHlo.Run

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]

/-- The buffers the operations of `hostOps0` write. -/
abbrev hostOps0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_cst_3]
theorem hostOps0_writes : (hostOps0 : List (HloOp τ sig (Elt F))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list holds after the stretch what it held before. -/
theorem kept0 (Z : Valuation τ sig (Elt F)) (r : Ref sig .tc) (h : r ∉ hostOps0_W) :
    StableHlo.after hostOps0 Z (Proc.devRef .tc r) = Z (Proc.devRef .tc r) :=
  StableHlo.after_of_writes_sub hostOps0 _ hostOps0_writes h

/-- The buffers the operations of `hostOps0_1` write. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list holds after the stretch what it held before. -/
theorem kept0_1 (Z : Valuation τ sig (Elt F)) (r : Ref sig .tc) (h : r ∉ hostOps0_1_W) :
    StableHlo.after hostOps0_1 Z (Proc.devRef .tc r) = Z (Proc.devRef .tc r) :=
  StableHlo.after_of_writes_sub hostOps0_1 _ hostOps0_1_writes h

/-- The buffers the operations of `hostOps0_2` write. -/
abbrev hostOps0_2_W : List (Ref sig .tc) := [main_v17, main_cst_4]
theorem hostOps0_2_writes : (hostOps0_2 : List (HloOp τ sig (Elt F))).Forall fun op => op.writes ⊆ (hostOps0_2_W.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list holds after the stretch what it held before. -/
theorem kept0_2 (Z : Valuation τ sig (Elt F)) (r : Ref sig .tc) (h : r ∉ hostOps0_2_W) :
    StableHlo.after hostOps0_2 Z (Proc.devRef .tc r) = Z (Proc.devRef .tc r) :=
  StableHlo.after_of_writes_sub hostOps0_2 _ hostOps0_2_writes h

/-- The buffers the operations of `hostOps0_3` write. -/
abbrev hostOps0_3_W : List (Ref sig .tc) := [main_call1_v0, main_call1_v1, main_v18]
theorem hostOps0_3_writes : (hostOps0_3 : List (HloOp τ sig (Elt F))).Forall fun op => op.writes ⊆ (hostOps0_3_W.map (Proc.devRef (τ := τ) .tc)).toFinset := by
  simp only [hostOps0_3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list holds after the stretch what it held before. -/
theorem kept0_3 (Z : Valuation τ sig (Elt F)) (r : Ref sig .tc) (h : r ∉ hostOps0_3_W) :
    StableHlo.after hostOps0_3 Z (Proc.devRef .tc r) = Z (Proc.devRef .tc r) :=
  StableHlo.after_of_writes_sub hostOps0_3 _ hostOps0_3_writes h

/-- The buffers the operations of `hostOps0_4` write. -/
abbrev hostOps0_4_W : List (Ref sig .tc) := [main_c, main_v19, main_v20, main_c_5, main_v21, main_v22, main_v23, main_v24, main_v25, main_v26, main_c_6, main_v27, main_v28, main_c_7, main_v29, main_v30, main_v31, main_v32, main_v33, main_v34]
theorem hostOps0_4_writes : (hostOps0_4 : List (HloOp τ sig (Elt F))).Forall fun op => op.writes ⊆ (hostOps0_4_W.map (Proc.devRef (τ := τ) .tc)).toFinset := by
  simp only [hostOps0_4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list holds after the stretch what it held before. -/
theorem kept0_4 (Z : Valuation τ sig (Elt F)) (r : Ref sig .tc) (h : r ∉ hostOps0_4_W) :
    StableHlo.after hostOps0_4 Z (Proc.devRef .tc r) = Z (Proc.devRef .tc r) :=
  StableHlo.after_of_writes_sub hostOps0_4 _ hostOps0_4_writes h

/-- The buffers the operations of `hostOps1` write. -/
abbrev hostOps1_W : List (Ref sig .tc) := [main_c_8, main_v36, main_v37, main_c_9, main_v38, main_v39, main_v40, main_v41, main_v42, main_v43, main_v44, main_v45, main_cst_10, main_v46, main_v47, main_v48, main_v49, main_v50, main_v51]
theorem hostOps1_writes : (hostOps1 : List (HloOp τ sig (Elt F))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list holds after the stretch what it held before. -/
theorem kept1 (Z : Valuation τ sig (Elt F)) (r : Ref sig .tc) (h : r ∉ hostOps1_W) :
    StableHlo.after hostOps1 Z (Proc.devRef .tc r) = Z (Proc.devRef .tc r) :=
  StableHlo.after_of_writes_sub hostOps1 _ hostOps1_writes h

/-- The buffers the operations of `hostOps1_1` write. -/
abbrev hostOps1_1_W : List (Ref sig .tc) := [main_call2_cst, main_call2_v0, main_v52]
theorem hostOps1_1_writes : (hostOps1_1 : List (HloOp τ sig (Elt F))).Forall fun op => op.writes ⊆ (hostOps1_1_W.map (Proc.devRef (τ := τ) .tc)).toFinset := by
  simp only [hostOps1_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list holds after the stretch what it held before. -/
theorem kept1_1 (Z : Valuation τ sig (Elt F)) (r : Ref sig .tc) (h : r ∉ hostOps1_1_W) :
    StableHlo.after hostOps1_1 Z (Proc.devRef .tc r) = Z (Proc.devRef .tc r) :=
  StableHlo.after_of_writes_sub hostOps1_1 _ hostOps1_1_writes h

end Cert.KernelIdeal.Kept

end
-- ==== Proof.StretchEntry.lean ====
/-
  The first stretch of host operations, read off the contents it starts from.

  Twenty-one operations build the edge lists and the degrees: the source and destination lists are the two rows of
  the edge argument followed by the self loops, the weight list is the weight argument followed by ones, the degrees
  are the weights summed at the destinations, and two copies of the positive-degree mask and the scalar one are
  left for the guarded inverse square root that follows.
-/
import proofs.«138966_j17497696764522_1_alg».proof.Proof.Gen.KernelIdeal.Frame
import proofs.«138966_j17497696764522_1_alg».proof.Proof.Spec
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo (after_cons after_nil)

variable (Z : Valuation τ sig (Elt Ideal))

set_option maxHeartbeats 1000000 in
/-- The source list. -/
theorem e0_src : StableHlo.after hostOps0 Z (Proc.devRef .tc main_v3) = Cert.Gcn.srcRaw (Z (Proc.devRef .tc main_arg1)) := by
  dsimp only [hostOps0]
  after_results_simp
  rfl

set_option maxHeartbeats 1000000 in
/-- The destination list. -/
theorem e0_dst : StableHlo.after hostOps0 Z (Proc.devRef .tc main_v6) = Cert.Gcn.dstRaw (Z (Proc.devRef .tc main_arg1)) := by
  dsimp only [hostOps0]
  after_results_simp
  rfl

set_option maxHeartbeats 1000000 in
/-- The weight list. -/
theorem e0_w : StableHlo.after hostOps0 Z (Proc.devRef .tc main_v8) = Cert.Gcn.wAll (Z (Proc.devRef .tc main_arg2)) := by
  dsimp only [hostOps0]
  after_results_simp
  rfl

set_option maxHeartbeats 1000000 in
/-- The degrees. -/
theorem e0_deg : StableHlo.after hostOps0 Z (Proc.devRef .tc main_v11) = Cert.Gcn.deg (Z (Proc.devRef .tc main_arg1)) (Z (Proc.devRef .tc main_arg2)) := by
  dsimp only [hostOps0]
  after_results_simp
  rfl

set_option maxHeartbeats 1000000 in
/-- The positive-degree mask, first copy. -/
theorem e0_pos13 : StableHlo.after hostOps0 Z (Proc.devRef .tc main_v13) = Cert.Gcn.posOf (Cert.Gcn.deg (Z (Proc.devRef .tc main_arg1)) (Z (Proc.devRef .tc main_arg2))) := by
  dsimp only [hostOps0]
  after_results_simp
  rfl

set_option maxHeartbeats 1000000 in
/-- The positive-degree mask, second copy. -/
theorem e0_pos15 : StableHlo.after hostOps0 Z (Proc.devRef .tc main_v15) = Cert.Gcn.posOf (Cert.Gcn.deg (Z (Proc.devRef .tc main_arg1)) (Z (Proc.devRef .tc main_arg2))) := by
  dsimp only [hostOps0]
  after_results_simp
  rfl

set_option maxHeartbeats 1000000 in
/-- The scalar one. -/
theorem e0_one : StableHlo.after hostOps0 Z (Proc.devRef .tc main_cst_3) = (Cert.Gcn.oneS : Cert.Gcn.RArr Ideal Cert.ReferenceIdeal.S_) := by
  dsimp only [hostOps0]
  after_results_simp
  rfl

end Cert.KernelIdeal.Stretch

end
-- ==== Proof.StretchScale.lean ====
/-
  The three short stretches that turn the degrees into the scales.

  A guarded choice keeps the degree where it is positive and puts a one elsewhere; the inverse square root is taken
  of that; a second guarded choice keeps the result where the degree is positive and puts a zero elsewhere. The two
  guarded choices are calls of a module-local function, whose buffers are read at the function's own types (the same
  types, so the reading is the identity).
-/
import proofs.«138966_j17497696764522_1_alg».proof.Proof.Gen.KernelIdeal.Frame
import proofs.«138966_j17497696764522_1_alg».proof.Proof.Spec
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo (after_cons after_nil)

variable (Z : Valuation τ sig (Elt Ideal))

/-- The first guarded choice. -/
theorem e1_safe : StableHlo.after hostOps0_1 Z (Proc.devRef .tc main_v16) = Cert.Gcn.whereOf (Z (Proc.devRef .tc main_v15)) (Z (Proc.devRef .tc main_v11)) (Z (Proc.devRef .tc main_cst_3)) := by
  dsimp only [hostOps0_1]
  after_results_simp
  rfl

/-- The inverse square root. -/
theorem e2_rsqrt : StableHlo.after hostOps0_2 Z (Proc.devRef .tc main_v17) = Cert.Gcn.rsqrtOf (Z (Proc.devRef .tc main_v16)) := by
  dsimp only [hostOps0_2]
  after_results_simp
  rfl

/-- The scalar zero. -/
theorem e2_zero : StableHlo.after hostOps0_2 Z (Proc.devRef .tc main_cst_4) = (Cert.Gcn.zeroS : Cert.Gcn.RArr Ideal Cert.ReferenceIdeal.S_) := by
  dsimp only [hostOps0_2]
  after_results_simp
  rfl

/-- The second guarded choice. -/
theorem e3_dis : StableHlo.after hostOps0_3 Z (Proc.devRef .tc main_v18) = Cert.Gcn.whereOf (Z (Proc.devRef .tc main_v13)) (Z (Proc.devRef .tc main_v17)) (Z (Proc.devRef .tc main_cst_4)) := by
  dsimp only [hostOps0_3]
  after_results_simp
  rfl

end Cert.KernelIdeal.Stretch

end
-- ==== Proof.StretchNorm.lean ====
/-
  The stretch that computes the edge coefficients.

  Twenty operations: each index list is wrapped (a negative index moved up by the node count), the scales are
  gathered at the sources and at the destinations, and an edge's coefficient is the source's scale times the weight
  times the destination's scale.
-/
import proofs.«138966_j17497696764522_1_alg».proof.Proof.Gen.KernelIdeal.Frame
import proofs.«138966_j17497696764522_1_alg».proof.Proof.Spec
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo (after_cons after_nil)

variable (Z : Valuation τ sig (Elt Ideal))

set_option maxHeartbeats 1000000 in
/-- The edge coefficients. -/
theorem e4_norm : StableHlo.after hostOps0_4 Z (Proc.devRef .tc main_v34) = Cert.Gcn.normOf (Z (Proc.devRef .tc main_v18)) (Z (Proc.devRef .tc main_v3)) (Z (Proc.devRef .tc main_v6)) (Z (Proc.devRef .tc main_v8)) := by
  dsimp only [hostOps0_4]
  after_results_simp
  rfl

end Cert.KernelIdeal.Stretch

end
-- ==== Proof.ValueEntry.lean ====
/-
  The buffers when the first region is entered, as functions of the launch memory.

  Five stretches of host operations run before the first region; the contents at each boundary are a fold from the
  launch memory. Each stretch's results are read off the boundary before it, and a buffer a stretch does not write
  is carried over. At the region's entry the source and destination lists are the two rows of the edge argument
  followed by the self loops, the edge coefficients are `dis src · w · dis dst` with `dis` the guarded inverse square
  root of the degrees, and the arguments are as launched.
-/
import proofs.«138966_j17497696764522_1_alg».proof.Proof.Gen.KernelIdeal.Frame
import proofs.«138966_j17497696764522_1_alg».proof.Proof.Spec
import proofs.«138966_j17497696764522_1_alg».proof.Proof.Kept
import proofs.«138966_j17497696764522_1_alg».proof.Proof.StretchEntry
import proofs.«138966_j17497696764522_1_alg».proof.Proof.StretchScale
import proofs.«138966_j17497696764522_1_alg».proof.Proof.StretchNorm
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## After the first stretch -/

theorem W1_src (c : Dev nD) : W1 m ρ c (Proc.devRef .tc main_v3) = Cert.Gcn.srcRaw (m ((c : Thread nD τ).loc main_arg1)) := Stretch.e0_src (W0 m ρ c)
theorem W1_dst (c : Dev nD) : W1 m ρ c (Proc.devRef .tc main_v6) = Cert.Gcn.dstRaw (m ((c : Thread nD τ).loc main_arg1)) := Stretch.e0_dst (W0 m ρ c)
theorem W1_w (c : Dev nD) : W1 m ρ c (Proc.devRef .tc main_v8) = Cert.Gcn.wAll (m ((c : Thread nD τ).loc main_arg2)) := Stretch.e0_w (W0 m ρ c)
theorem W1_deg (c : Dev nD) : W1 m ρ c (Proc.devRef .tc main_v11) = (Cert.Gcn.deg (m ((c : Thread nD τ).loc main_arg1)) (m ((c : Thread nD τ).loc main_arg2))) := Stretch.e0_deg (W0 m ρ c)
theorem W1_pos13 (c : Dev nD) : W1 m ρ c (Proc.devRef .tc main_v13) = (Cert.Gcn.posOf (Cert.Gcn.deg (m ((c : Thread nD τ).loc main_arg1)) (m ((c : Thread nD τ).loc main_arg2)))) := Stretch.e0_pos13 (W0 m ρ c)
theorem W1_pos15 (c : Dev nD) : W1 m ρ c (Proc.devRef .tc main_v15) = (Cert.Gcn.posOf (Cert.Gcn.deg (m ((c : Thread nD τ).loc main_arg1)) (m ((c : Thread nD τ).loc main_arg2)))) := Stretch.e0_pos15 (W0 m ρ c)
theorem W1_one (c : Dev nD) : W1 m ρ c (Proc.devRef .tc main_cst_3) = (Cert.Gcn.oneS : Cert.Gcn.RArr Ideal Cert.ReferenceIdeal.S_) := Stretch.e0_one (W0 m ρ c)

/-! ## The scales -/

/-- The degree where positive, one elsewhere. -/
theorem W2_safe (c : Dev nD) : W2 m ρ c (Proc.devRef .tc main_v16) = (Cert.Gcn.whereOf (Cert.Gcn.posOf (Cert.Gcn.deg (m ((c : Thread nD τ).loc main_arg1)) (m ((c : Thread nD τ).loc main_arg2)))) (Cert.Gcn.deg (m ((c : Thread nD τ).loc main_arg1)) (m ((c : Thread nD τ).loc main_arg2))) Cert.Gcn.oneS) := by
  refine (Stretch.e1_safe (W1 m ρ c)).trans ?_
  rw [W1_pos15 m ρ c, W1_deg m ρ c, W1_one m ρ c]

theorem W3_rsqrt (c : Dev nD) : W3 m ρ c (Proc.devRef .tc main_v17) = Cert.Gcn.rsqrtOf (Cert.Gcn.whereOf (Cert.Gcn.posOf (Cert.Gcn.deg (m ((c : Thread nD τ).loc main_arg1)) (m ((c : Thread nD τ).loc main_arg2)))) (Cert.Gcn.deg (m ((c : Thread nD τ).loc main_arg1)) (m ((c : Thread nD τ).loc main_arg2))) Cert.Gcn.oneS) := by
  refine (Stretch.e2_rsqrt (W2 m ρ c)).trans ?_
  rw [W2_safe m ρ c]

theorem W3_zero (c : Dev nD) : W3 m ρ c (Proc.devRef .tc main_cst_4) = (Cert.Gcn.zeroS : Cert.Gcn.RArr Ideal Cert.ReferenceIdeal.S_) := Stretch.e2_zero (W2 m ρ c)

theorem W3_pos (c : Dev nD) : W3 m ρ c (Proc.devRef .tc main_v13) = (Cert.Gcn.posOf (Cert.Gcn.deg (m ((c : Thread nD τ).loc main_arg1)) (m ((c : Thread nD τ).loc main_arg2)))) :=
  (Kept.kept0_2 (W2 m ρ c) main_v13 (by decide)).trans <| (Kept.kept0_1 (W1 m ρ c) main_v13 (by decide)).trans <| W1_pos13 m ρ c

/-- The scales: the guarded inverse square root of the degrees. -/
theorem W4_dis (c : Dev nD) : W4 m ρ c (Proc.devRef .tc main_v18) = Cert.Gcn.dis (m ((c : Thread nD τ).loc main_arg1)) (m ((c : Thread nD τ).loc main_arg2)) := by
  refine (Stretch.e3_dis (W3 m ρ c)).trans ?_
  rw [W3_pos m ρ c, W3_rsqrt m ρ c, W3_zero m ρ c]
  rfl

/-- A buffer the three short stretches do not write is carried from the first boundary to the fourth. -/
theorem W4_of_W1 (c : Dev nD) (r : Ref sig .tc) (h1 : r ∉ Kept.hostOps0_1_W) (h2 : r ∉ Kept.hostOps0_2_W) (h3 : r ∉ Kept.hostOps0_3_W) :
    W4 m ρ c (Proc.devRef .tc r) = W1 m ρ c (Proc.devRef .tc r) :=
  (Kept.kept0_3 (W3 m ρ c) r h3).trans <| (Kept.kept0_2 (W2 m ρ c) r h2).trans <| Kept.kept0_1 (W1 m ρ c) r h1

/-! ## At the first region's entry -/

/-- The edge coefficients. -/
theorem W5_norm (c : Dev nD) : W5 m ρ c (Proc.devRef .tc main_v34) = Cert.Gcn.norm (m ((c : Thread nD τ).loc main_arg1)) (m ((c : Thread nD τ).loc main_arg2)) := by
  refine (Stretch.e4_norm (W4 m ρ c)).trans ?_
  rw [W4_dis m ρ c, W4_of_W1 m ρ c main_v3 (by decide) (by decide) (by decide), W4_of_W1 m ρ c main_v6 (by decide) (by decide) (by decide),
    W4_of_W1 m ρ c main_v8 (by decide) (by decide) (by decide), W1_src m ρ c, W1_dst m ρ c, W1_w m ρ c]
  rfl

/-- The source list. -/
theorem W5_src (c : Dev nD) : W5 m ρ c (Proc.devRef .tc main_v3) = Cert.Gcn.srcRaw (m ((c : Thread nD τ).loc main_arg1)) :=
  (Kept.kept0_4 (W4 m ρ c) main_v3 (by decide)).trans <| (W4_of_W1 m ρ c main_v3 (by decide) (by decide) (by decide)).trans <| W1_src m ρ c

/-- The destination list. -/
theorem W5_dst (c : Dev nD) : W5 m ρ c (Proc.devRef .tc main_v6) = Cert.Gcn.dstRaw (m ((c : Thread nD τ).loc main_arg1)) :=
  (Kept.kept0_4 (W4 m ρ c) main_v6 (by decide)).trans <| (W4_of_W1 m ρ c main_v6 (by decide) (by decide) (by decide)).trans <| W1_dst m ρ c

/-- A buffer none of the five stretches writes holds what was launched. -/
theorem W5_kept (c : Dev nD) (r : Ref sig .tc) (h0 : r ∉ Kept.hostOps0_W) (h1 : r ∉ Kept.hostOps0_1_W) (h2 : r ∉ Kept.hostOps0_2_W)
    (h3 : r ∉ Kept.hostOps0_3_W) (h4 : r ∉ Kept.hostOps0_4_W) : W5 m ρ c (Proc.devRef .tc r) = W0 m ρ c (Proc.devRef .tc r) :=
  (Kept.kept0_4 (W4 m ρ c) r h4).trans <| (W4_of_W1 m ρ c r h1 h2 h3).trans <| Kept.kept0 (W0 m ρ c) r h0

theorem W5_arg0 (c : Dev nD) : W5 m ρ c (Proc.devRef .tc main_arg0) = (m ((c : Thread nD τ).loc main_arg0)) :=
  (W5_kept m ρ c main_arg0 (by decide) (by decide) (by decide) (by decide) (by decide)).trans rfl

theorem W5_arg3 (c : Dev nD) : W5 m ρ c (Proc.devRef .tc main_arg3) = (m ((c : Thread nD τ).loc main_arg3)) :=
  (W5_kept m ρ c main_arg3 (by decide) (by decide) (by decide) (by decide) (by decide)).trans rfl

theorem W5_arg4 (c : Dev nD) : W5 m ρ c (Proc.devRef .tc main_arg4) = (m ((c : Thread nD τ).loc main_arg4)) :=
  (W5_kept m ρ c main_arg4 (by decide) (by decide) (by decide) (by decide) (by decide)).trans rfl

theorem W5_arg5 (c : Dev nD) : W5 m ρ c (Proc.devRef .tc main_arg5) = (m ((c : Thread nD τ).loc main_arg5)) :=
  (W5_kept m ρ c main_arg5 (by decide) (by decide) (by decide) (by decide) (by decide)).trans rfl

theorem W5_arg6 (c : Dev nD) : W5 m ρ c (Proc.devRef .tc main_arg6) = (m ((c : Thread nD τ).loc main_arg6)) :=
  (W5_kept m ρ c main_arg6 (by decide) (by decide) (by decide) (by decide) (by decide)).trans rfl

end Cert.KernelIdeal.Value

end
-- ==== Proof.StretchMiddle.lean ====
/-
  The stretch between the two regions.

  Nineteen operations gather the first region's result at the wrapped sources, scale each row by the edge's
  coefficient, sum the rows at the destinations and add the first bias; a call of a module-local function then
  clamps the sum below at zero.
-/
import proofs.«138966_j17497696764522_1_alg».proof.Proof.Gen.KernelIdeal.Frame
import proofs.«138966_j17497696764522_1_alg».proof.Proof.Spec
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo (after_cons after_nil)

variable (Z : Valuation τ sig (Elt Ideal))

set_option maxHeartbeats 1000000 in
/-- The first layer's aggregation. -/
theorem l1_pre : StableHlo.after hostOps1 Z (Proc.devRef .tc main_v51) = Cert.Gcn.pre1 (Z (Proc.devRef .tc main_v35)) (Z (Proc.devRef .tc main_v3)) (Z (Proc.devRef .tc main_v6)) (Z (Proc.devRef .tc main_v34)) (Z (Proc.devRef .tc main_arg4)) := by
  dsimp only [hostOps1]
  after_results_simp
  rfl

/-- The clamp. -/
theorem l1_relu : StableHlo.after hostOps1_1 Z (Proc.devRef .tc main_v52) = Cert.Gcn.relu (Z (Proc.devRef .tc main_v51)) := by
  dsimp only [hostOps1_1]
  after_results_simp
  rfl

end Cert.KernelIdeal.Stretch

end
-- ==== Proof.StretchLast.lean ====
/-
  The stretch after the second region.

  Eighteen operations gather the second region's result at the wrapped sources, scale by the edge coefficients, sum
  at the destinations and add the second bias: the second layer, with no clamp.
-/
import proofs.«138966_j17497696764522_1_alg».proof.Proof.Gen.KernelIdeal.Frame
import proofs.«138966_j17497696764522_1_alg».proof.Proof.Spec
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo (after_cons after_nil)

variable (Z : Valuation τ sig (Elt Ideal))

set_option maxHeartbeats 1000000 in
/-- The second layer. -/
theorem l2_out : StableHlo.after hostOps2 Z (Proc.devRef .tc main_v68) = Cert.Gcn.layer2 (Z (Proc.devRef .tc main_v53)) (Z (Proc.devRef .tc main_v3)) (Z (Proc.devRef .tc main_v6)) (Z (Proc.devRef .tc main_v34)) (Z (Proc.devRef .tc main_arg6)) := by
  dsimp only [hostOps2]
  after_results_simp
  rfl

end Cert.KernelIdeal.Stretch

end
-- ==== Proof.KernelValue.lean ====
/-
  The idealized kernel's result as the composed network of its arguments.

  Boundary by boundary through the program (the fold `W0 … W10` of the run): when the first region is entered the
  source and destination lists and the edge coefficients have been computed from the edge arguments, and the other
  arguments are as launched; the region leaves the product of the features and the first weights in its result; the
  next stretches apply the first layer to it; the second region leaves the product of that layer's output and the
  second weights; the last stretch applies the second layer. The host stretches are the reference's own operations,
  so each boundary's value is the shared function of the previous boundary's values by reading the operations off;
  the regions' values are the matrix products the reference computes with its two dot products.
-/
import proofs.«138966_j17497696764522_1_alg».proof.Proof.Gen.KernelIdeal.Frame
import proofs.«138966_j17497696764522_1_alg».proof.Proof.Region0
import proofs.«138966_j17497696764522_1_alg».proof.Proof.Region1
import proofs.«138966_j17497696764522_1_alg».proof.Proof.Spec
import proofs.«138966_j17497696764522_1_alg».proof.Proof.Kept
import proofs.«138966_j17497696764522_1_alg».proof.Proof.ValueEntry
import proofs.«138966_j17497696764522_1_alg».proof.Proof.StretchMiddle
import proofs.«138966_j17497696764522_1_alg».proof.Proof.StretchLast
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The regions' products are the reference's dot products -/

/-- The first region's whole product is the reference's first dot product. -/
theorem prod0_eq (X : Cert.Gcn.RArr Ideal S100000x256) (W : Cert.Gcn.RArr Ideal S256x16) : Region0.prod X W = Cert.Gcn.dense1 X W := rfl

/-- The second region's whole product is the reference's second dot product. -/
theorem prod1_eq (X : Cert.Gcn.RArr Ideal S100000x16) (W : Cert.Gcn.RArr Ideal S16x1) : Region1.prod X W = Cert.Gcn.dense2 X W := rfl

/-! ## At the first region's exit -/

/-- The region leaves the product of the features and the first weights in its result array. -/
theorem W6_h (c : Dev nD) : W6 m ρ c (Proc.devRef .tc main_v35) = (Cert.Gcn.dense1 (m ((c : Thread nD τ).loc main_arg0)) (m ((c : Thread nD τ).loc main_arg3))) := by
  refine (W6_arr m ρ c 2).trans ?_
  refine (Region0.final (V5 m ρ) c).trans ?_
  show Region0.prod (W5 m ρ c (Proc.devRef .tc main_arg0)) (W5 m ρ c (Proc.devRef .tc main_arg3)) = _
  rw [W5_arg0 m ρ c, W5_arg3 m ρ c]
  exact prod0_eq _ _

/-! ## At the second region's entry -/

/-- A buffer the two stretches between the regions do not write is carried across them. -/
theorem W8_of_W6 (c : Dev nD) (r : Ref sig .tc) (h1 : r ∉ Kept.hostOps1_W) (h2 : r ∉ Kept.hostOps1_1_W) :
    W8 m ρ c (Proc.devRef .tc r) = W6 m ρ c (Proc.devRef .tc r) :=
  (Kept.kept1_1 (W7 m ρ c) r h2).trans <| Kept.kept1 (W6 m ρ c) r h1

theorem W6_src (c : Dev nD) : W6 m ρ c (Proc.devRef .tc main_v3) = (Cert.Gcn.srcRaw (m ((c : Thread nD τ).loc main_arg1))) := (W6_of_ne m ρ c main_v3 (by decide)).trans (W5_src m ρ c)
theorem W6_dst (c : Dev nD) : W6 m ρ c (Proc.devRef .tc main_v6) = (Cert.Gcn.dstRaw (m ((c : Thread nD τ).loc main_arg1))) := (W6_of_ne m ρ c main_v6 (by decide)).trans (W5_dst m ρ c)
theorem W6_norm (c : Dev nD) : W6 m ρ c (Proc.devRef .tc main_v34) = (Cert.Gcn.norm (m ((c : Thread nD τ).loc main_arg1)) (m ((c : Thread nD τ).loc main_arg2))) := (W6_of_ne m ρ c main_v34 (by decide)).trans (W5_norm m ρ c)
theorem W6_arg4 (c : Dev nD) : W6 m ρ c (Proc.devRef .tc main_arg4) = (m ((c : Thread nD τ).loc main_arg4)) := (W6_of_ne m ρ c main_arg4 (by decide)).trans (W5_arg4 m ρ c)
theorem W6_arg5 (c : Dev nD) : W6 m ρ c (Proc.devRef .tc main_arg5) = (m ((c : Thread nD τ).loc main_arg5)) := (W6_of_ne m ρ c main_arg5 (by decide)).trans (W5_arg5 m ρ c)
theorem W6_arg6 (c : Dev nD) : W6 m ρ c (Proc.devRef .tc main_arg6) = (m ((c : Thread nD τ).loc main_arg6)) := (W6_of_ne m ρ c main_arg6 (by decide)).trans (W5_arg6 m ρ c)

/-- The stretches between the regions apply the first layer to the first region's result. -/
theorem W8_h (c : Dev nD) : W8 m ρ c (Proc.devRef .tc main_v52) = (Cert.Gcn.layer1 (Cert.Gcn.dense1 (m ((c : Thread nD τ).loc main_arg0)) (m ((c : Thread nD τ).loc main_arg3))) (Cert.Gcn.srcRaw (m ((c : Thread nD τ).loc main_arg1))) (Cert.Gcn.dstRaw (m ((c : Thread nD τ).loc main_arg1))) (Cert.Gcn.norm (m ((c : Thread nD τ).loc main_arg1)) (m ((c : Thread nD τ).loc main_arg2))) (m ((c : Thread nD τ).loc main_arg4))) := by
  refine (Stretch.l1_relu (W7 m ρ c)).trans ?_
  rw [show W7 m ρ c (Proc.devRef .tc main_v51) = _ from Stretch.l1_pre (W6 m ρ c)]
  rw [W6_h m ρ c, W6_src m ρ c, W6_dst m ρ c, W6_norm m ρ c, W6_arg4 m ρ c]
  rfl

theorem W8_src (c : Dev nD) : W8 m ρ c (Proc.devRef .tc main_v3) = (Cert.Gcn.srcRaw (m ((c : Thread nD τ).loc main_arg1))) := (W8_of_W6 m ρ c main_v3 (by decide) (by decide)).trans (W6_src m ρ c)
theorem W8_dst (c : Dev nD) : W8 m ρ c (Proc.devRef .tc main_v6) = (Cert.Gcn.dstRaw (m ((c : Thread nD τ).loc main_arg1))) := (W8_of_W6 m ρ c main_v6 (by decide) (by decide)).trans (W6_dst m ρ c)
theorem W8_norm (c : Dev nD) : W8 m ρ c (Proc.devRef .tc main_v34) = (Cert.Gcn.norm (m ((c : Thread nD τ).loc main_arg1)) (m ((c : Thread nD τ).loc main_arg2))) := (W8_of_W6 m ρ c main_v34 (by decide) (by decide)).trans (W6_norm m ρ c)
theorem W8_arg5 (c : Dev nD) : W8 m ρ c (Proc.devRef .tc main_arg5) = (m ((c : Thread nD τ).loc main_arg5)) := (W8_of_W6 m ρ c main_arg5 (by decide) (by decide)).trans (W6_arg5 m ρ c)
theorem W8_arg6 (c : Dev nD) : W8 m ρ c (Proc.devRef .tc main_arg6) = (m ((c : Thread nD τ).loc main_arg6)) := (W8_of_W6 m ρ c main_arg6 (by decide) (by decide)).trans (W6_arg6 m ρ c)

/-! ## At the second region's exit -/

/-- The region leaves the product of the first layer's output and the second weights in its result array. -/
theorem W9_h (c : Dev nD) : W9 m ρ c (Proc.devRef .tc main_v53) = Cert.Gcn.dense2 (Cert.Gcn.layer1 (Cert.Gcn.dense1 (m ((c : Thread nD τ).loc main_arg0)) (m ((c : Thread nD τ).loc main_arg3))) (Cert.Gcn.srcRaw (m ((c : Thread nD τ).loc main_arg1))) (Cert.Gcn.dstRaw (m ((c : Thread nD τ).loc main_arg1))) (Cert.Gcn.norm (m ((c : Thread nD τ).loc main_arg1)) (m ((c : Thread nD τ).loc main_arg2))) (m ((c : Thread nD τ).loc main_arg4))) (m ((c : Thread nD τ).loc main_arg5)) := by
  refine (W9_arr m ρ c 2).trans ?_
  refine (Region1.final (V8 m ρ) c).trans ?_
  show Region1.prod (W8 m ρ c (Proc.devRef .tc main_v52)) (W8 m ρ c (Proc.devRef .tc main_arg5)) = _
  rw [W8_h m ρ c, W8_arg5 m ρ c]
  exact prod1_eq _ _

/-! ## At the return -/

/-- The result buffer ends at the composed network of the seven arguments. -/
theorem result (c : Dev nD) : W10 m ρ c (Proc.devRef .tc main_v68)
    = Cert.Gcn.full (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Stretch.l2_out (W9 m ρ c)).trans ?_
  rw [W9_h m ρ c, (W9_of_ne m ρ c main_v3 (by decide)).trans (W8_src m ρ c), (W9_of_ne m ρ c main_v6 (by decide)).trans (W8_dst m ρ c),
    (W9_of_ne m ρ c main_v34 (by decide)).trans (W8_norm m ρ c), (W9_of_ne m ρ c main_arg6 (by decide)).trans (W8_arg6 m ρ c)]
  rfl

end Cert.KernelIdeal.Value

end
-- ==== Proof.lean ====
/-
  A two-layer graph convolution: the kernel against its reference, at the ideal values.

  Both programs compute `Â · relu(Â · (X W₁) + b₁) W₂ + b₂` with the same normalised adjacency `Â` built from the edge
  list (self loops added, each edge scaled by the inverse square roots of its end points' degrees) and the same
  gather / scale / segment-sum aggregation, operation for operation. They differ only in the two dense transforms:
  the reference takes one dot product of the whole arrays, the kernel runs a pipelined region over 20 row blocks of
  5000, rounding its operands to bf16 on the way into the matrix unit. On the ideal values the rounding is the
  identity and a block of the product is the product of the block, so each region's result array is the whole
  product; everything around the regions is the same function of the same values. No algebraic law beyond reading a
  sum at an index is needed, so the finiteness of the inputs is never used.

  The three frames are the generated ones (the reference's is its run with the result dropped); the idealization
  rewrote nothing, so `preserves` is trivial.
-/
import proofs.«138966_j17497696764522_1_alg».proof.Defs
import proofs.«138966_j17497696764522_1_alg».proof.Proof.Gen.Kernel
import proofs.«138966_j17497696764522_1_alg».proof.Proof.Gen.Kernel.Frame
import proofs.«138966_j17497696764522_1_alg».proof.Proof.Gen.KernelIdeal
import proofs.«138966_j17497696764522_1_alg».proof.Proof.Gen.KernelIdeal.Frame
import proofs.«138966_j17497696764522_1_alg».proof.Proof.Gen.ReferenceIdeal
import proofs.«138966_j17497696764522_1_alg».proof.Proof.Gen.Pre_finite_inputs
import proofs.«138966_j17497696764522_1_alg».proof.Proof.Gen.ReferenceIdeal.Run
import proofs.«138966_j17497696764522_1_alg».proof.Proof.Spec
import proofs.«138966_j17497696764522_1_alg».proof.Proof.KernelRun
import proofs.«138966_j17497696764522_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the composed network of those arguments in the
    result: the kernel by its run read boundary by boundary, the reference by its run's term unfolded. -/
theorem algebraic : Cert.algebraic_KernelIdeal_ReferenceIdeal := by
  intro m ρ m' ρ' _ hagree
  refine ⟨fun c => Cert.Gcn.full (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Value.result m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.ref_eq, (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
